-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S1x4096 : Shape := ⟨2, ![1, 4096]⟩
abbrev S256x1024 : Shape := ⟨2, ![256, 1024]⟩
abbrev S4096x1024 : Shape := ⟨2, ![4096, 1024]⟩
abbrev S256x4096 : Shape := ⟨2, ![256, 4096]⟩

abbrev nBuf : Space → Nat
  | .hbm => 17
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S4096x2048, .f32⟩
  | .hbm, ⟨12, _⟩ => ⟨S4096x2048, .bf16⟩
  | .hbm, ⟨13, _⟩ => ⟨S4096, .f32⟩
  | .hbm, ⟨14, _⟩ => ⟨S1x4096, .f32⟩
  | .hbm, ⟨15, _⟩ => ⟨S8192x1024, .f32⟩
  | .hbm, ⟨16, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x2048, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x2048_S1024x2048_S1024x2048_S1024x2048_S4096x2048_d0 : Shape.Concatenates [S1024x2048, S1024x2048, S1024x2048, S1024x2048] S4096x2048 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x2048_S4096x1024_0_0 : ∀ a, (![0, 0] : Fin 2 → Nat) a + S4096x1024.size a ≤ S4096x2048.size a
  h_S4096x1024 : 0 < S4096x1024.numel
  shapeCasts_S4096x1024_S4096x1024 : S4096x1024.ShapeCasts S4096x1024
  inb_S4096x2048_S4096x1024_0_1024 : ∀ a, (![0, 1024] : Fin 2 → Nat) a + S4096x1024.size a ≤ S4096x2048.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x2048.size a ≤ S4096x2048.size a
  hwx0_3 : ∀ i : grid0.Coords, EltTy.bits .bf16 = 32 ∨ (Rect.block (s := S4096x2048) S4096x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S1024 : Shape := ⟨1, ![1024]⟩
abbrev S8192x2048 : Shape := ⟨2, ![8192, 2048]⟩
abbrev S4096x2048 : Shape := ⟨2, ![4096, 2048]⟩
abbrev S4096 : Shape := ⟨1, ![4096]⟩
abbrev S2048x4096 : Shape := ⟨2, ![2048, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S8192x2048, .f32⟩
  | .hbm, ⟨12, _⟩ => ⟨S4096x2048, .f32⟩
  | .hbm, ⟨13, _⟩ => ⟨S4096, .f32⟩
  | .hbm, ⟨14, _⟩ => ⟨S2048x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.KernelFrame.lean ====
/-
  The frame of the fused LSTM-cell program: the program's four host operations (the two concatenations of the
  gate weights and biases, the change of format, the reshape) then one pipelined region of 32 grid points, each
  of which reads a block of 256 rows of x, h and c, the whole weight matrix and the whole bias row, and writes a
  block of 256 rows of each result.

  What is established here, for any float instance: what the region finds in every array when it is entered
  (`entry`), that the argument arrays are not written by the host operations, what each point's body leaves in
  the two result buffers as a function of the blocks it was handed (`hOut`, `cOut`), the body's triple, the
  pipeline's proof data, the run of the whole program, and the frame statement: the program terminates without a
  fault and leaves its eleven argument arrays as they were.
-/
import proofs.«142480_j77919296684536_2_alg».proof.Proof.Gen.Kernel.Launch
import proofs.«142480_j77919296684536_2_alg».proof.Proof.Gen.Kernel.Skeleton
import proofs.«142480_j77919296684536_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch contents after the four host operations. -/
abbrev entry (c : Dev nD) (b : Ref sig .tc) : Buf (Elt F) ((c : Thread nD τ).loc b) :=
  StableHlo.after hostOps0 (fun b => m (c, b)) b

/-- None of the four host operations allocates anything. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer that is none of the four results of the host operations is found as launched. -/
theorem entry_of_ne (c : Dev nD) (b : Ref sig .tc) (h0 : b ≠ main_v0) (h1 : b ≠ main_v1) (h2 : b ≠ main_v2) (h3 : b ≠ main_v3) :
    entry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

theorem entry_arg0 (c : Dev nD) : entry m c main_arg0 = m ((c : Thread nD τ).loc main_arg0) := entry_of_ne m c _ (by decide) (by decide) (by decide) (by decide)
theorem entry_arg1 (c : Dev nD) : entry m c main_arg1 = m ((c : Thread nD τ).loc main_arg1) := entry_of_ne m c _ (by decide) (by decide) (by decide) (by decide)
theorem entry_arg2 (c : Dev nD) : entry m c main_arg2 = m ((c : Thread nD τ).loc main_arg2) := entry_of_ne m c _ (by decide) (by decide) (by decide) (by decide)
theorem entry_arg3 (c : Dev nD) : entry m c main_arg3 = m ((c : Thread nD τ).loc main_arg3) := entry_of_ne m c _ (by decide) (by decide) (by decide) (by decide)
theorem entry_arg4 (c : Dev nD) : entry m c main_arg4 = m ((c : Thread nD τ).loc main_arg4) := entry_of_ne m c _ (by decide) (by decide) (by decide) (by decide)
theorem entry_arg5 (c : Dev nD) : entry m c main_arg5 = m ((c : Thread nD τ).loc main_arg5) := entry_of_ne m c _ (by decide) (by decide) (by decide) (by decide)
theorem entry_arg6 (c : Dev nD) : entry m c main_arg6 = m ((c : Thread nD τ).loc main_arg6) := entry_of_ne m c _ (by decide) (by decide) (by decide) (by decide)
theorem entry_arg7 (c : Dev nD) : entry m c main_arg7 = m ((c : Thread nD τ).loc main_arg7) := entry_of_ne m c _ (by decide) (by decide) (by decide) (by decide)
theorem entry_arg8 (c : Dev nD) : entry m c main_arg8 = m ((c : Thread nD τ).loc main_arg8) := entry_of_ne m c _ (by decide) (by decide) (by decide) (by decide)
theorem entry_arg9 (c : Dev nD) : entry m c main_arg9 = m ((c : Thread nD τ).loc main_arg9) := entry_of_ne m c _ (by decide) (by decide) (by decide) (by decide)
theorem entry_arg10 (c : Dev nD) : entry m c main_arg10 = m ((c : Thread nD τ).loc main_arg10) := entry_of_ne m c _ (by decide) (by decide) (by decide) (by decide)

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

section
variable {c : Dev nD} (dat : Dat τ (Elt F) Unit ℕ (UR sig nD τ) ℕ cfg0 c)

/-- An input window's current staging buffer holds the window's block at every point, whether the point fetched it
    or an earlier one did and the block index has not moved since. -/
theorem held0 (hA : dat.A 0 = entry m c (Pipeline.arrRef spec0 0)) (hafter : ∀ t, dat.after 0 t = blockAt m c 0 t) (t : Fin cfg0.N) (d) :
    dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1 (hA : dat.A 1 = entry m c (Pipeline.arrRef spec0 1)) (hafter : ∀ t, dat.after 1 t = blockAt m c 1 t) (t : Fin cfg0.N) (d) :
    dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2 (hA : dat.A 2 = entry m c (Pipeline.arrRef spec0 2)) (hafter : ∀ t, dat.after 2 t = blockAt m c 2 t) (t : Fin cfg0.N) (d) :
    dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3 (hA : dat.A 3 = entry m c (Pipeline.arrRef spec0 3)) (hafter : ∀ t, dat.after 3 t = blockAt m c 3 t) (t : Fin cfg0.N) (d) :
    dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4 (hA : dat.A 4 = entry m c (Pipeline.arrRef spec0 4)) (hafter : ∀ t, dat.after 4 t = blockAt m c 4 t) (t : Fin cfg0.N) (d) :
    dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
end

/-! ## The body's accesses -/

/-- The whole 256 x 1024 staging buffer: the rectangle of every load of x, h, c and of both stores. -/
abbrev rRows : Rect S256x1024 := Rect.unit (s := S256x1024) ![0, 0] S256x1024.size inb_S256x1024_S256x1024_0_0
/-- The left half of the weight matrix's columns (the columns that meet x); -/
abbrev rWx : Rect S4096x2048 := Rect.unit (s := S4096x2048) ![0, 0] S4096x1024.size inb_S4096x2048_S4096x1024_0_0
/-- its right half (the columns that meet h). -/
abbrev rWh : Rect S4096x2048 := Rect.unit (s := S4096x2048) ![0, 1024] S4096x1024.size inb_S4096x2048_S4096x1024_0_1024
/-- The whole bias row. -/
abbrev rBias : Rect S1x4096 := Rect.unit (s := S1x4096) ![0, 0] S1x4096.size inb_S1x4096_S1x4096_0_0

/-! ## What the body leaves in each result buffer -/

/-- The hidden-state buffer after the body: its one store, of the whole buffer. -/
def hOut (x h cp : Vec F S256x1024 .f32) (w : Vec F S4096x2048 .bf16) (b : Vec F S1x4096 .f32) : Vec F S256x1024 .f32 :=
  View.canon [⟨rRows, k0_pay3 (View.ld x rRows) (View.ld h rRows) (View.ld w rWx) (View.ld w rWh) (View.ld b rBias) (View.ld cp rRows)⟩]

/-- The cell-state buffer after the body: its one store, of the whole buffer. -/
def cOut (x h cp : Vec F S256x1024 .f32) (w : Vec F S4096x2048 .bf16) (b : Vec F S1x4096 .f32) : Vec F S256x1024 .f32 :=
  View.canon [⟨rRows, k0_pay2 (View.ld x rRows) (View.ld h rRows) (View.ld w rWx) (View.ld w rWh) (View.ld b rBias) (View.ld cp rRows)⟩]

/-- A store through the whole-buffer rectangle covers the buffer. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging buffers — the five inputs at read contents, the two results at anything — runs to a
    state holding the inputs as they were and the results at `hOut`, `cOut` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S4096x2048 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x h cp : Vec F S256x1024 .f32) (w : Vec F S4096x2048 .bf16) (b : Vec F S1x4096 .f32) (K : PUnit → sProp 𝕄) :
    iprop(owns (c : Thread nD τ) arg1 fullShare x ∗ owns (c : Thread nD τ) arg2 fullShare h ∗ owns (c : Thread nD τ) arg3 fullShare cp
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare cp
            ∗ owns (c : Thread nD τ) arg4 fullShare w ∗ owns (c : Thread nD τ) arg5 fullShare b
            ∗ owns (c : Thread nD τ) arg6 fullShare (hOut x h cp w b) ∗ owns (c : Thread nD τ) arg7 fullShare (cOut x h cp w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The pipeline's proof data -/

/-- The proof data of the pipeline on core `c`: the arrays as the region finds them; after the body at point `t`
    each input's buffer still at its block and each result's at the body's function of the input blocks; the
    invariant is the untouched rest of the core; nothing is owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => hOut (blockAt m c 0 t) (blockAt m c 1 t) (blockAt m c 2 t) (blockAt m c 3 t) (blockAt m c 4 t)
    | ⟨6, _⟩ => cOut (blockAt m c 0 t) (blockAt m c 1 t) (blockAt m c 2 t) (blockAt m c 3 t) (blockAt m c 4 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = hOut (blockAt m c 0 t) (blockAt m c 1 t) (blockAt m c 2 t) (blockAt m c 3 t) (blockAt m c 4 t) := by dsimp only [dats]
theorem after6 (c : Dev nD) (t : Fin cfg0.N) : (dats m 0 c).after 6 t = cOut (blockAt m c 0 t) (blockAt m c 1 t) (blockAt m c 2 t) (blockAt m c 3 t) (blockAt m c 4 t) := by dsimp only [dats]

theorem before0 (c : Dev nD) (t : Fin cfg0.N) (d) : (dats m 0 c).before 0 t d = blockAt m c 0 t := held0 m (dats m 0 c) (A_eq m c 0) (after0 m c) t d
theorem before1 (c : Dev nD) (t : Fin cfg0.N) (d) : (dats m 0 c).before 1 t d = blockAt m c 1 t := held1 m (dats m 0 c) (A_eq m c 1) (after1 m c) t d
theorem before2 (c : Dev nD) (t : Fin cfg0.N) (d) : (dats m 0 c).before 2 t d = blockAt m c 2 t := held2 m (dats m 0 c) (A_eq m c 2) (after2 m c) t d
theorem before3 (c : Dev nD) (t : Fin cfg0.N) (d) : (dats m 0 c).before 3 t d = blockAt m c 3 t := held3 m (dats m 0 c) (A_eq m c 3) (after3 m c) t d
theorem before4 (c : Dev nD) (t : Fin cfg0.N) (d) : (dats m 0 c).before 4 t d = blockAt m c 4 t := held4 m (dats m 0 c) (A_eq m c 4) (after4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and the final state has
    every array of the pipeline at what the library computes from the proof data and every other unscoped buffer as
    the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-! ## The argument arrays after the run -/

section
variable (r : PUnit × MemSt nD τ sig (Elt F)) (hr : Pipeline.FramePost cfgs (dats m) 0 (entry m) r) (c : Dev nD)
include hr

/-- x, h and c are staged by input windows, which never write back. -/
theorem kept_arg0 : r.2.mem ((c : Thread nD τ).loc main_arg0) = m ((c : Thread nD τ).loc main_arg0) :=
  ((hr c).1 0).trans (((dats m 0 c).arrAt_in 0 rfl _).trans ((A_eq m c 0).trans (entry_arg0 m c)))
theorem kept_arg1 : r.2.mem ((c : Thread nD τ).loc main_arg1) = m ((c : Thread nD τ).loc main_arg1) :=
  ((hr c).1 1).trans (((dats m 0 c).arrAt_in 1 rfl _).trans ((A_eq m c 1).trans (entry_arg1 m c)))
theorem kept_arg2 : r.2.mem ((c : Thread nD τ).loc main_arg2) = m ((c : Thread nD τ).loc main_arg2) :=
  ((hr c).1 2).trans (((dats m 0 c).arrAt_in 2 rfl _).trans ((A_eq m c 2).trans (entry_arg2 m c)))
/-- The gate weights and biases are staged by no window: the region leaves them as it found them. -/
theorem kept_arg3 : r.2.mem ((c : Thread nD τ).loc main_arg3) = m ((c : Thread nD τ).loc main_arg3) :=
  ((hr c).2 main_arg3 (Pipeline.mem_restRefs_of main_arg3 (by decide) (by decide))).trans (entry_arg3 m c)
theorem kept_arg4 : r.2.mem ((c : Thread nD τ).loc main_arg4) = m ((c : Thread nD τ).loc main_arg4) :=
  ((hr c).2 main_arg4 (Pipeline.mem_restRefs_of main_arg4 (by decide) (by decide))).trans (entry_arg4 m c)
theorem kept_arg5 : r.2.mem ((c : Thread nD τ).loc main_arg5) = m ((c : Thread nD τ).loc main_arg5) :=
  ((hr c).2 main_arg5 (Pipeline.mem_restRefs_of main_arg5 (by decide) (by decide))).trans (entry_arg5 m c)
theorem kept_arg6 : r.2.mem ((c : Thread nD τ).loc main_arg6) = m ((c : Thread nD τ).loc main_arg6) :=
  ((hr c).2 main_arg6 (Pipeline.mem_restRefs_of main_arg6 (by decide) (by decide))).trans (entry_arg6 m c)
theorem kept_arg7 : r.2.mem ((c : Thread nD τ).loc main_arg7) = m ((c : Thread nD τ).loc main_arg7) :=
  ((hr c).2 main_arg7 (Pipeline.mem_restRefs_of main_arg7 (by decide) (by decide))).trans (entry_arg7 m c)
theorem kept_arg8 : r.2.mem ((c : Thread nD τ).loc main_arg8) = m ((c : Thread nD τ).loc main_arg8) :=
  ((hr c).2 main_arg8 (Pipeline.mem_restRefs_of main_arg8 (by decide) (by decide))).trans (entry_arg8 m c)
theorem kept_arg9 : r.2.mem ((c : Thread nD τ).loc main_arg9) = m ((c : Thread nD τ).loc main_arg9) :=
  ((hr c).2 main_arg9 (Pipeline.mem_restRefs_of main_arg9 (by decide) (by decide))).trans (entry_arg9 m c)
theorem kept_arg10 : r.2.mem ((c : Thread nD τ).loc main_arg10) = m ((c : Thread nD τ).loc main_arg10) :=
  ((hr c).2 main_arg10 (Pipeline.mem_restRefs_of main_arg10 (by decide) (by decide))).trans (entry_arg10 m c)
end

/-- The run with each result array named by the pipeline library's account of the write-backs, and the eleven
    argument arrays unchanged. -/
theorem run_named : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1 5, (h c).1 6,
      kept_arg0 m r h c, kept_arg1 m r h c, kept_arg2 m r h c, kept_arg3 m r h c, kept_arg4 m r h c, kept_arg5 m r h c,
      kept_arg6 m r h c, kept_arg7 m r h c, kept_arg8 m r h c, kept_arg9 m r h c, kept_arg10 m r h c⟩)
    (run_main m ρ)

/-- The frame: the program terminates without a fault and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2.2) (run_named m ρ)

end Cert.Kernel.Hand

end
-- ==== Proof.KernelIdealFrame.lean ====
/-
  The frame of the fused LSTM-cell program: the program's four host operations (the two concatenations of the
  gate weights and biases, the change of format, the reshape) then one pipelined region of 32 grid points, each
  of which reads a block of 256 rows of x, h and c, the whole weight matrix and the whole bias row, and writes a
  block of 256 rows of each result.

  What is established here, for any float instance: what the region finds in every array when it is entered
  (`entry`), that the argument arrays are not written by the host operations, what each point's body leaves in
  the two result buffers as a function of the blocks it was handed (`hOut`, `cOut`), the body's triple, the
  pipeline's proof data, the run of the whole program, and the frame statement: the program terminates without a
  fault and leaves its eleven argument arrays as they were.
-/
import proofs.«142480_j77919296684536_2_alg».proof.Proof.Gen.KernelIdeal.Launch
import proofs.«142480_j77919296684536_2_alg».proof.Proof.Gen.KernelIdeal.Skeleton
import proofs.«142480_j77919296684536_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch contents after the four host operations. -/
abbrev entry (c : Dev nD) (b : Ref sig .tc) : Buf (Elt F) ((c : Thread nD τ).loc b) :=
  StableHlo.after hostOps0 (fun b => m (c, b)) b

/-- None of the four host operations allocates anything. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer that is none of the four results of the host operations is found as launched. -/
theorem entry_of_ne (c : Dev nD) (b : Ref sig .tc) (h0 : b ≠ main_v0) (h1 : b ≠ main_v1) (h2 : b ≠ main_v2) (h3 : b ≠ main_v3) :
    entry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

theorem entry_arg0 (c : Dev nD) : entry m c main_arg0 = m ((c : Thread nD τ).loc main_arg0) := entry_of_ne m c _ (by decide) (by decide) (by decide) (by decide)
theorem entry_arg1 (c : Dev nD) : entry m c main_arg1 = m ((c : Thread nD τ).loc main_arg1) := entry_of_ne m c _ (by decide) (by decide) (by decide) (by decide)
theorem entry_arg2 (c : Dev nD) : entry m c main_arg2 = m ((c : Thread nD τ).loc main_arg2) := entry_of_ne m c _ (by decide) (by decide) (by decide) (by decide)
theorem entry_arg3 (c : Dev nD) : entry m c main_arg3 = m ((c : Thread nD τ).loc main_arg3) := entry_of_ne m c _ (by decide) (by decide) (by decide) (by decide)
theorem entry_arg4 (c : Dev nD) : entry m c main_arg4 = m ((c : Thread nD τ).loc main_arg4) := entry_of_ne m c _ (by decide) (by decide) (by decide) (by decide)
theorem entry_arg5 (c : Dev nD) : entry m c main_arg5 = m ((c : Thread nD τ).loc main_arg5) := entry_of_ne m c _ (by decide) (by decide) (by decide) (by decide)
theorem entry_arg6 (c : Dev nD) : entry m c main_arg6 = m ((c : Thread nD τ).loc main_arg6) := entry_of_ne m c _ (by decide) (by decide) (by decide) (by decide)
theorem entry_arg7 (c : Dev nD) : entry m c main_arg7 = m ((c : Thread nD τ).loc main_arg7) := entry_of_ne m c _ (by decide) (by decide) (by decide) (by decide)
theorem entry_arg8 (c : Dev nD) : entry m c main_arg8 = m ((c : Thread nD τ).loc main_arg8) := entry_of_ne m c _ (by decide) (by decide) (by decide) (by decide)
theorem entry_arg9 (c : Dev nD) : entry m c main_arg9 = m ((c : Thread nD τ).loc main_arg9) := entry_of_ne m c _ (by decide) (by decide) (by decide) (by decide)
theorem entry_arg10 (c : Dev nD) : entry m c main_arg10 = m ((c : Thread nD τ).loc main_arg10) := entry_of_ne m c _ (by decide) (by decide) (by decide) (by decide)

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

section
variable {c : Dev nD} (dat : Dat τ (Elt F) Unit ℕ (UR sig nD τ) ℕ cfg0 c)

/-- An input window's current staging buffer holds the window's block at every point, whether the point fetched it
    or an earlier one did and the block index has not moved since. -/
theorem held0 (hA : dat.A 0 = entry m c (Pipeline.arrRef spec0 0)) (hafter : ∀ t, dat.after 0 t = blockAt m c 0 t) (t : Fin cfg0.N) (d) :
    dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1 (hA : dat.A 1 = entry m c (Pipeline.arrRef spec0 1)) (hafter : ∀ t, dat.after 1 t = blockAt m c 1 t) (t : Fin cfg0.N) (d) :
    dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2 (hA : dat.A 2 = entry m c (Pipeline.arrRef spec0 2)) (hafter : ∀ t, dat.after 2 t = blockAt m c 2 t) (t : Fin cfg0.N) (d) :
    dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3 (hA : dat.A 3 = entry m c (Pipeline.arrRef spec0 3)) (hafter : ∀ t, dat.after 3 t = blockAt m c 3 t) (t : Fin cfg0.N) (d) :
    dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4 (hA : dat.A 4 = entry m c (Pipeline.arrRef spec0 4)) (hafter : ∀ t, dat.after 4 t = blockAt m c 4 t) (t : Fin cfg0.N) (d) :
    dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
end

/-! ## The body's accesses -/

/-- The whole 256 x 1024 staging buffer: the rectangle of every load of x, h, c and of both stores. -/
abbrev rRows : Rect S256x1024 := Rect.unit (s := S256x1024) ![0, 0] S256x1024.size inb_S256x1024_S256x1024_0_0
/-- The left half of the weight matrix's columns (the columns that meet x); -/
abbrev rWx : Rect S4096x2048 := Rect.unit (s := S4096x2048) ![0, 0] S4096x1024.size inb_S4096x2048_S4096x1024_0_0
/-- its right half (the columns that meet h). -/
abbrev rWh : Rect S4096x2048 := Rect.unit (s := S4096x2048) ![0, 1024] S4096x1024.size inb_S4096x2048_S4096x1024_0_1024
/-- The whole bias row. -/
abbrev rBias : Rect S1x4096 := Rect.unit (s := S1x4096) ![0, 0] S1x4096.size inb_S1x4096_S1x4096_0_0

/-! ## What the body leaves in each result buffer -/

/-- The hidden-state buffer after the body: its one store, of the whole buffer. -/
def hOut (x h cp : Vec F S256x1024 .f32) (w : Vec F S4096x2048 .bf16) (b : Vec F S1x4096 .f32) : Vec F S256x1024 .f32 :=
  View.canon [⟨rRows, k0_pay3 (View.ld x rRows) (View.ld h rRows) (View.ld w rWx) (View.ld w rWh) (View.ld b rBias) (View.ld cp rRows)⟩]

/-- The cell-state buffer after the body: its one store, of the whole buffer. -/
def cOut (x h cp : Vec F S256x1024 .f32) (w : Vec F S4096x2048 .bf16) (b : Vec F S1x4096 .f32) : Vec F S256x1024 .f32 :=
  View.canon [⟨rRows, k0_pay2 (View.ld x rRows) (View.ld h rRows) (View.ld w rWx) (View.ld w rWh) (View.ld b rBias) (View.ld cp rRows)⟩]

/-- A store through the whole-buffer rectangle covers the buffer. -/
theorem cover_rows (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging buffers — the five inputs at read contents, the two results at anything — runs to a
    state holding the inputs as they were and the results at `hOut`, `cOut` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S4096x2048 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x h cp : Vec F S256x1024 .f32) (w : Vec F S4096x2048 .bf16) (b : Vec F S1x4096 .f32) (K : PUnit → sProp 𝕄) :
    iprop(owns (c : Thread nD τ) arg1 fullShare x ∗ owns (c : Thread nD τ) arg2 fullShare h ∗ owns (c : Thread nD τ) arg3 fullShare cp
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare cp
            ∗ owns (c : Thread nD τ) arg4 fullShare w ∗ owns (c : Thread nD τ) arg5 fullShare b
            ∗ owns (c : Thread nD τ) arg6 fullShare (hOut x h cp w b) ∗ owns (c : Thread nD τ) arg7 fullShare (cOut x h cp w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The pipeline's proof data -/

/-- The proof data of the pipeline on core `c`: the arrays as the region finds them; after the body at point `t`
    each input's buffer still at its block and each result's at the body's function of the input blocks; the
    invariant is the untouched rest of the core; nothing is owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => hOut (blockAt m c 0 t) (blockAt m c 1 t) (blockAt m c 2 t) (blockAt m c 3 t) (blockAt m c 4 t)
    | ⟨6, _⟩ => cOut (blockAt m c 0 t) (blockAt m c 1 t) (blockAt m c 2 t) (blockAt m c 3 t) (blockAt m c 4 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = hOut (blockAt m c 0 t) (blockAt m c 1 t) (blockAt m c 2 t) (blockAt m c 3 t) (blockAt m c 4 t) := by dsimp only [dats]
theorem after6 (c : Dev nD) (t : Fin cfg0.N) : (dats m 0 c).after 6 t = cOut (blockAt m c 0 t) (blockAt m c 1 t) (blockAt m c 2 t) (blockAt m c 3 t) (blockAt m c 4 t) := by dsimp only [dats]

theorem before0 (c : Dev nD) (t : Fin cfg0.N) (d) : (dats m 0 c).before 0 t d = blockAt m c 0 t := held0 m (dats m 0 c) (A_eq m c 0) (after0 m c) t d
theorem before1 (c : Dev nD) (t : Fin cfg0.N) (d) : (dats m 0 c).before 1 t d = blockAt m c 1 t := held1 m (dats m 0 c) (A_eq m c 1) (after1 m c) t d
theorem before2 (c : Dev nD) (t : Fin cfg0.N) (d) : (dats m 0 c).before 2 t d = blockAt m c 2 t := held2 m (dats m 0 c) (A_eq m c 2) (after2 m c) t d
theorem before3 (c : Dev nD) (t : Fin cfg0.N) (d) : (dats m 0 c).before 3 t d = blockAt m c 3 t := held3 m (dats m 0 c) (A_eq m c 3) (after3 m c) t d
theorem before4 (c : Dev nD) (t : Fin cfg0.N) (d) : (dats m 0 c).before 4 t d = blockAt m c 4 t := held4 m (dats m 0 c) (A_eq m c 4) (after4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and the final state has
    every array of the pipeline at what the library computes from the proof data and every other unscoped buffer as
    the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-! ## The argument arrays after the run -/

section
variable (r : PUnit × MemSt nD τ sig (Elt F)) (hr : Pipeline.FramePost cfgs (dats m) 0 (entry m) r) (c : Dev nD)
include hr

/-- x, h and c are staged by input windows, which never write back. -/
theorem kept_arg0 : r.2.mem ((c : Thread nD τ).loc main_arg0) = m ((c : Thread nD τ).loc main_arg0) :=
  ((hr c).1 0).trans (((dats m 0 c).arrAt_in 0 rfl _).trans ((A_eq m c 0).trans (entry_arg0 m c)))
theorem kept_arg1 : r.2.mem ((c : Thread nD τ).loc main_arg1) = m ((c : Thread nD τ).loc main_arg1) :=
  ((hr c).1 1).trans (((dats m 0 c).arrAt_in 1 rfl _).trans ((A_eq m c 1).trans (entry_arg1 m c)))
theorem kept_arg2 : r.2.mem ((c : Thread nD τ).loc main_arg2) = m ((c : Thread nD τ).loc main_arg2) :=
  ((hr c).1 2).trans (((dats m 0 c).arrAt_in 2 rfl _).trans ((A_eq m c 2).trans (entry_arg2 m c)))
/-- The gate weights and biases are staged by no window: the region leaves them as it found them. -/
theorem kept_arg3 : r.2.mem ((c : Thread nD τ).loc main_arg3) = m ((c : Thread nD τ).loc main_arg3) :=
  ((hr c).2 main_arg3 (Pipeline.mem_restRefs_of main_arg3 (by decide) (by decide))).trans (entry_arg3 m c)
theorem kept_arg4 : r.2.mem ((c : Thread nD τ).loc main_arg4) = m ((c : Thread nD τ).loc main_arg4) :=
  ((hr c).2 main_arg4 (Pipeline.mem_restRefs_of main_arg4 (by decide) (by decide))).trans (entry_arg4 m c)
theorem kept_arg5 : r.2.mem ((c : Thread nD τ).loc main_arg5) = m ((c : Thread nD τ).loc main_arg5) :=
  ((hr c).2 main_arg5 (Pipeline.mem_restRefs_of main_arg5 (by decide) (by decide))).trans (entry_arg5 m c)
theorem kept_arg6 : r.2.mem ((c : Thread nD τ).loc main_arg6) = m ((c : Thread nD τ).loc main_arg6) :=
  ((hr c).2 main_arg6 (Pipeline.mem_restRefs_of main_arg6 (by decide) (by decide))).trans (entry_arg6 m c)
theorem kept_arg7 : r.2.mem ((c : Thread nD τ).loc main_arg7) = m ((c : Thread nD τ).loc main_arg7) :=
  ((hr c).2 main_arg7 (Pipeline.mem_restRefs_of main_arg7 (by decide) (by decide))).trans (entry_arg7 m c)
theorem kept_arg8 : r.2.mem ((c : Thread nD τ).loc main_arg8) = m ((c : Thread nD τ).loc main_arg8) :=
  ((hr c).2 main_arg8 (Pipeline.mem_restRefs_of main_arg8 (by decide) (by decide))).trans (entry_arg8 m c)
theorem kept_arg9 : r.2.mem ((c : Thread nD τ).loc main_arg9) = m ((c : Thread nD τ).loc main_arg9) :=
  ((hr c).2 main_arg9 (Pipeline.mem_restRefs_of main_arg9 (by decide) (by decide))).trans (entry_arg9 m c)
theorem kept_arg10 : r.2.mem ((c : Thread nD τ).loc main_arg10) = m ((c : Thread nD τ).loc main_arg10) :=
  ((hr c).2 main_arg10 (Pipeline.mem_restRefs_of main_arg10 (by decide) (by decide))).trans (entry_arg10 m c)
end

/-- The run with each result array named by the pipeline library's account of the write-backs, and the eleven
    argument arrays unchanged. -/
theorem run_named : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1 5, (h c).1 6,
      kept_arg0 m r h c, kept_arg1 m r h c, kept_arg2 m r h c, kept_arg3 m r h c, kept_arg4 m r h c, kept_arg5 m r h c,
      kept_arg6 m r h c, kept_arg7 m r h c, kept_arg8 m r h c, kept_arg9 m r h c, kept_arg10 m r h c⟩)
    (run_main m ρ)

/-- The frame: the program terminates without a fault and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2.2) (run_named m ρ)

end Cert.KernelIdeal.Hand

end
-- ==== Proof.LstmSpec.lean ====
/-
  The LSTM cell as a function of rows, on the extended reals.

  With `xr`, `hr` a row of x and of h (1024 entries each), `wj` row `j` of the stacked gate weights (2048
  entries: the first 1024 columns meet x, the last 1024 meet h) and `bj` entry `j` of the stacked biases, the
  pre-activation of gate unit `j` is  gate = Σₖ xr k · wj k + Σₖ hr k · wj (1024 + k) + bj.  The 4096 gate units
  are laid out as four groups of 1024: forget, input, candidate, output.  With σ the logistic function,
      newCell   q = σ (g (q)) · c_prev + σ (g (1024 + q)) · tanh (g (2048 + q))
      newHidden q = σ (g (3072 + q)) · tanh (newCell q).
  Also here: a sum over 2048 columns is the sum over the first 1024 plus the sum over the last 1024 (in any
  commutative monoid, so at infinite values too), and the logistic function written out as 1 / (1 + e^(-x)).
-/
import Idealize.ShloMosaic.PureOps.Ideal
import Idealize.ShloMosaic.PureOps.Ideal.Laws
import Idealize.ShloMosaic.Lib.ValueIdx
import Idealize.ShloMosaic.Lib.IdealHost

noncomputable section

namespace Cert.Lstm

open Idealize.ShloMosaic

/-- Column `k` of the part of a weight row that meets x; -/
abbrev colX (k : Fin 1024) : Fin 2048 := ⟨k.val, by omega⟩
/-- column `k` of the part that meets h. -/
abbrev colH (k : Fin 1024) : Fin 2048 := ⟨1024 + k.val, by omega⟩

/-- Unit `q` of the forget, input, candidate and output groups among the 4096 gate units. -/
abbrev unitF (q : Fin 1024) : Fin 4096 := ⟨q.val, by omega⟩
abbrev unitI (q : Fin 1024) : Fin 4096 := ⟨1024 + q.val, by omega⟩
abbrev unitC (q : Fin 1024) : Fin 4096 := ⟨2048 + q.val, by omega⟩
abbrev unitO (q : Fin 1024) : Fin 4096 := ⟨3072 + q.val, by omega⟩

/-- A gate unit's pre-activation from a row of x, a row of h, the two halves of the unit's weight row (the half that
    meets x, the half that meets h) and its bias. -/
def gate (xr hr wx wh : Fin 1024 → EReal) (bj : EReal) : EReal :=
  (∑ k : Fin 1024, xr k * wx k + ∑ k : Fin 1024, hr k * wh k) + bj

/-- The new cell state at unit `q` from the 4096 pre-activations of the row and the old cell state there. -/
def newCell (g : Fin 4096 → EReal) (cp : EReal) (q : Fin 1024) : EReal :=
  Ideal.logistic (g (unitF q)) * cp + Ideal.logistic (g (unitI q)) * Ideal.tanh (g (unitC q))

/-- The new hidden state at unit `q`. -/
def newHidden (g : Fin 4096 → EReal) (cp : EReal) (q : Fin 1024) : EReal :=
  Ideal.logistic (g (unitO q)) * Ideal.tanh (newCell g cp q)

/-! ## The whole batch -/

/-- The new cell state of the whole batch at row `r`, unit `q`: from the rows of x, h and the old cell state, the
    rows of the stacked weights and the stacked biases. -/
def cellRows (X H Cp : Fin 8192 → Fin 1024 → EReal) (W : Fin 4096 → Fin 2048 → EReal) (b : Fin 4096 → EReal)
    (r : Fin 8192) (q : Fin 1024) : EReal :=
  newCell (fun j => gate (X r) (H r) (fun k => W j (colX k)) (fun k => W j (colH k)) (b j)) (Cp r q) q

/-- The new hidden state of the whole batch at row `r`, unit `q`. -/
def hiddenRows (X H Cp : Fin 8192 → Fin 1024 → EReal) (W : Fin 4096 → Fin 2048 → EReal) (b : Fin 4096 → EReal)
    (r : Fin 8192) (q : Fin 1024) : EReal :=
  newHidden (fun j => gate (X r) (H r) (fun k => W j (colX k)) (fun k => W j (colH k)) (b j)) (Cp r q) q

/-- The shapes of x, h, the cell state and both results; of the stacked weights; of the stacked biases. -/
abbrev Batch : Shape := ⟨2, ![8192, 1024]⟩
abbrev Weights : Shape := ⟨2, ![4096, 2048]⟩
abbrev Biases : Shape := ⟨1, ![4096]⟩

/-- The new cell state as an array, from the argument arrays. -/
def cellArray (x h cp : Batch.Idx → EReal) (w : Weights.Idx → EReal) (b : Biases.Idx → EReal) : Batch.Idx → EReal := fun i =>
  cellRows (fun r k => x (ValueIdx.ix2 r k)) (fun r k => h (ValueIdx.ix2 r k)) (fun r q => cp (ValueIdx.ix2 r q))
    (fun j k => w (ValueIdx.ix2 j k)) (fun j => b (ValueIdx.ix1 j)) ⟨(i 0).val, ValueIdx.idx2_lt0 i⟩ ⟨(i 1).val, ValueIdx.idx2_lt1 i⟩

/-- The new hidden state as an array. -/
def hiddenArray (x h cp : Batch.Idx → EReal) (w : Weights.Idx → EReal) (b : Biases.Idx → EReal) : Batch.Idx → EReal := fun i =>
  hiddenRows (fun r k => x (ValueIdx.ix2 r k)) (fun r k => h (ValueIdx.ix2 r k)) (fun r q => cp (ValueIdx.ix2 r q))
    (fun j k => w (ValueIdx.ix2 j k)) (fun j => b (ValueIdx.ix1 j)) ⟨(i 0).val, ValueIdx.idx2_lt0 i⟩ ⟨(i 1).val, ValueIdx.idx2_lt1 i⟩

theorem cellArray_apply (x h cp : Batch.Idx → EReal) (w : Weights.Idx → EReal) (b : Biases.Idx → EReal) (r : Fin 8192) (q : Fin 1024) :
    cellArray x h cp w b (ValueIdx.ix2 r q)
      = cellRows (fun r k => x (ValueIdx.ix2 r k)) (fun r k => h (ValueIdx.ix2 r k)) (fun r q => cp (ValueIdx.ix2 r q))
          (fun j k => w (ValueIdx.ix2 j k)) (fun j => b (ValueIdx.ix1 j)) r q := rfl

theorem hiddenArray_apply (x h cp : Batch.Idx → EReal) (w : Weights.Idx → EReal) (b : Biases.Idx → EReal) (r : Fin 8192) (q : Fin 1024) :
    hiddenArray x h cp w b (ValueIdx.ix2 r q)
      = hiddenRows (fun r k => x (ValueIdx.ix2 r k)) (fun r k => h (ValueIdx.ix2 r k)) (fun r q => cp (ValueIdx.ix2 r q))
          (fun j k => w (ValueIdx.ix2 j k)) (fun j => b (ValueIdx.ix1 j)) r q := rfl

/-! ## Two laws -/

/-- A sum over the 2048 columns splits at column 1024. -/
theorem sum_cols {M : Type*} [AddCommMonoid M] (f : Fin 2048 → M) :
    ∑ k : Fin 2048, f k = ∑ k : Fin 1024, f (colX k) + ∑ k : Fin 1024, f (colH k) :=
  Fin.sum_univ_add (a := 1024) (b := 1024) f

/-- The logistic function is 1 / (1 + e^(-x)), the quotient and the exponential being the extended reals' own. -/
theorem logistic_eq (x : EReal) : Ideal.logistic x = Ideal.div 1 (1 + Ideal.exp (-x)) := rfl

end Cert.Lstm

end
-- ==== Proof.KernelPayload.lean ====
/-
  What one grid point's body computes, read entry by entry on the extended reals.

  The body is handed a block of 256 rows of x, of h and of the old cell state, the left and right halves of the
  stacked weight matrix (each 4096 x 1024) and the bias row.  Its two matrix products contract the 1024 columns of
  a row of x (of h) with the 1024 columns of a weight row; added, and the bias row added to every row, they are the
  4096 pre-activations of each row; the four groups of 1024 are cut out, passed through the logistic function and
  tanh, and combined into the new cell state and hidden state.  So at row `p` and unit `q` of the block the two
  stored values are `Lstm.cell` and `Lstm.hidden` of row `p`'s pre-activations.
-/
import proofs.«142480_j77919296684536_2_alg».proof.Proof.Gen.KernelIdeal.Skeleton
import proofs.«142480_j77919296684536_2_alg».proof.Proof.LstmSpec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.Lstm

/-! ## The matrix product at an entry -/

/-- The left operand's row is the output's row; -/
theorem lhs_row (i : S256x4096.Idx) (q : dot_S256x1024_S4096x1024_S256x4096_1_1_0_0_n_n.contr.Idx) : (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
/-- its column is the contracted index. -/
theorem lhs_col (i : S256x4096.Idx) (q : dot_S256x1024_S4096x1024_S256x4096_1_1_0_0_n_n.contr.Idx) : (dot_S256x1024_S4096x1024_S256x4096_1_1_0_0_n_n.lhsIdx i q 1).val = (q ⟨0, by decide⟩).val :=
  dot_S256x1024_S4096x1024_S256x4096_1_1_0_0_n_n.lhsIdx_val_of_single rfl i q
/-- The right operand's row is the output's column (the gate unit); -/
theorem rhs_row (i : S256x4096.Idx) (q : dot_S256x1024_S4096x1024_S256x4096_1_1_0_0_n_n.contr.Idx) : (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
/-- its column is the contracted index. -/
theorem rhs_col (i : S256x4096.Idx) (q : dot_S256x1024_S4096x1024_S256x4096_1_1_0_0_n_n.contr.Idx) : (dot_S256x1024_S4096x1024_S256x4096_1_1_0_0_n_n.rhsIdx i q 1).val = (q ⟨0, by decide⟩).val :=
  dot_S256x1024_S4096x1024_S256x4096_1_1_0_0_n_n.rhsIdx_val_of_single rfl i q

/-- The matrix unit's product of a 256 x 1024 block with a 4096 x 1024 block of weight rows, both contracted on
    their 1024 columns, into a zero accumulator: at row `p` and unit `j` the sum over the columns. -/
theorem product_at (a : FVec Ideal S256x1024 .bf16) (w : FVec Ideal S4096x1024 .bf16) (p : Fin 256) (j : Fin 4096) :
    matmul dot_S256x1024_S4096x1024_S256x4096_1_1_0_0_n_n none a w (constant (F := Ideal) S256x4096 .f32 0x00000000#32) (ix2 p j)
      = ∑ k : Fin 1024, a (ix2 p k) * w (ix2 j k) := by
  refine (Ideal.matmul_constant_zero_apply dot_S256x1024_S4096x1024_S256x4096_1_1_0_0_n_n none a w (ix2 p j)).trans ?_
  rw [← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p j) ((contrEquiv1 dot_S256x1024_S4096x1024_S256x4096_1_1_0_0_n_n 1024 rfl rfl).symm k) = ix2 p k := funext fun a => Fin.ext (by
    match a with
    | ⟨0, _⟩ => exact lhs_row _ _
    | ⟨1, _⟩ => exact (lhs_col _ _).trans hk)
  have er : dot_S256x1024_S4096x1024_S256x4096_1_1_0_0_n_n.rhsIdx (ix2 p j) ((contrEquiv1 dot_S256x1024_S4096x1024_S256x4096_1_1_0_0_n_n 1024 rfl rfl).symm k) = ix2 j k := funext fun a => Fin.ext (by
    match a with
    | ⟨0, _⟩ => exact rhs_row _ _
    | ⟨1, _⟩ => exact (rhs_col _ _).trans hk)
  rw [el, er]

/-! ## The layout operations at an entry -/

/-- The bias row spread over the 256 rows: every row reads the bias row. -/
theorem bias_at (b : FVec Ideal S1x4096 .f32) (p : Fin 256) (j : Fin 4096) :
    broadcastTo S256x4096 b broadcasts_S1x4096_S256x4096 (ix2 p j) = b (ix2 0 j) :=
  broadcastTo_apply b broadcasts_S1x4096_S256x4096 (ix2 p j) (ix2 0 j) (fun a => match a with
    | ⟨0, _⟩ => by show (0 : Nat) = if (1 : Nat) = 1 then 0 else p.val; rw [if_pos rfl]
    | ⟨1, _⟩ => by show j.val = if (4096 : Nat) = 1 then 0 else j.val; rw [if_neg (by decide)])

/-- A group of 1024 units cut out of the 4096: unit `q` of the group at column offset `off` is unit `off + q`. -/
theorem group_at (g : FVec Ideal S256x4096 .f32) (off : Nat) (h : S256x4096.Slices ![0, off] S256x1024) (p : Fin 256) (q : Fin 1024)
    (u : Fin 4096) (hu : u.val = off + q.val) :
    extractStridedSlice S256x1024 ![0, off] g h (ix2 p q) = g (ix2 p u) :=
  extractStridedSlice_apply ![0, off] g h (ix2 p q) (ix2 p u) (fun a => match a with
    | ⟨0, _⟩ => by show p.val = 0 + p.val; omega
    | ⟨1, _⟩ => by show u.val = off + q.val; exact hu)

/-! ## The body's three values at an entry -/

/-- The pre-activation of unit `j` in row `p` of the block. -/
theorem preact_at (x0 x2 : Vec Ideal S256x1024 .f32) (v4 v6 : Vec Ideal S4096x1024 .bf16) (v11 : Vec Ideal S1x4096 .f32)
    (p : Fin 256) (j : Fin 4096) :
    k0_pay1 (F := Ideal) x0 x2 v4 v6 v11 (ix2 p j)
      = gate (fun k => x0 (ix2 p k)) (fun k => x2 (ix2 p k)) (fun k => v4 (ix2 j k)) (fun k => v6 (ix2 j k)) (v11 (ix2 0 j)) := by
  unfold k0_pay1 gate
  simp only [shapeCast_self]
  exact congrArg₂ (· + ·) (congrArg₂ (· + ·) (product_at _ v4 p j) (product_at _ v6 p j)) (bias_at v11 p j)

/-- The new cell state at row `p`, unit `q` of the block. -/
theorem cell_at (x0 x2 : Vec Ideal S256x1024 .f32) (v4 v6 : Vec Ideal S4096x1024 .bf16) (v11 : Vec Ideal S1x4096 .f32)
    (v23 : Vec Ideal S256x1024 .f32) (p : Fin 256) (q : Fin 1024) :
    k0_pay2 (F := Ideal) x0 x2 v4 v6 v11 v23 (ix2 p q)
      = newCell (fun j => gate (fun k => x0 (ix2 p k)) (fun k => x2 (ix2 p k)) (fun k => v4 (ix2 j k)) (fun k => v6 (ix2 j k)) (v11 (ix2 0 j)))
          (v23 (ix2 p q)) q := by
  unfold k0_pay2 newCell
  simp only [← preact_at]
  exact congrArg₂ (· + ·)
    (congrArg₂ (· * ·) (congrArg Ideal.logistic (group_at _ 0 _ p q (unitF q) (by show q.val = 0 + q.val; omega))) rfl)
    (congrArg₂ (· * ·) (congrArg Ideal.logistic (group_at _ 1024 _ p q (unitI q) rfl)) (congrArg Ideal.tanh (group_at _ 2048 _ p q (unitC q) rfl)))

/-- The new hidden state at row `p`, unit `q` of the block. -/
theorem hidden_at (x0 x2 : Vec Ideal S256x1024 .f32) (v4 v6 : Vec Ideal S4096x1024 .bf16) (v11 : Vec Ideal S1x4096 .f32)
    (v23 : Vec Ideal S256x1024 .f32) (p : Fin 256) (q : Fin 1024) :
    k0_pay3 (F := Ideal) x0 x2 v4 v6 v11 v23 (ix2 p q)
      = newHidden (fun j => gate (fun k => x0 (ix2 p k)) (fun k => x2 (ix2 p k)) (fun k => v4 (ix2 j k)) (fun k => v6 (ix2 j k)) (v11 (ix2 0 j)))
          (v23 (ix2 p q)) q := by
  unfold k0_pay3 newHidden
  exact congrArg₂ (· * ·)
    (congrArg Ideal.logistic ((group_at _ 3072 _ p q (unitO q) rfl).trans (preact_at x0 x2 v4 v6 v11 p (unitO q))))
    (congrArg Ideal.tanh (cell_at x0 x2 v4 v6 v11 v23 p q))

end Cert.KernelIdeal.Payload

end
-- ==== Proof.KernelValue.lean ====
/-
  The two result arrays of the fused LSTM-cell program, on the extended reals, as functions of the arrays the
  region finds.

  Grid point `t` stages rows 256·t … 256·t + 255 of x, h and the old cell state, the whole stacked weight matrix
  and the whole bias row, and writes back rows 256·t … 256·t + 255 of each result.  Read through those blocks, the
  body's stored values (`Payload.cell_at`, `Payload.hidden_at`) are the entries of `Lstm.cellArray` and
  `Lstm.hiddenArray` at the rows of the block; the 32 blocks cover the 8192 rows, so after the run each result
  array is that function.  The stacked weights the region finds are the concatenation of the four gate weight
  matrices (the change of float format is the identity on the extended reals) and the bias row is the
  concatenation of the four bias vectors given a leading unit axis.
-/
import proofs.«142480_j77919296684536_2_alg».proof.Proof.KernelIdealFrame
import proofs.«142480_j77919296684536_2_alg».proof.Proof.KernelPayload
import Idealize.ShloMosaic.Lib.Pipeline.Value
import Idealize.ShloMosaic.Lib.ValueLayout
import Idealize.ShloMosaic.Lib.StableHlo.Run

set_option maxRecDepth 16384

noncomputable section

namespace Cert.KernelIdeal.Whole

open Cert.KernelIdeal Cert.KernelIdeal.Gen Cert.KernelIdeal.Hand Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

/-! ## The index maps, decided over the 32 grid points -/

theorem zero_off : (![0, 0] : Fin 2 → Nat) = fun _ => 0 := funext fun a => by fin_cases a <;> rfl

/-- The row-blocked windows (x, h, the cell state, both results) are at block row `t`, block column 0; the weight
    matrix and the bias row are always at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Every block row is some point's. -/
theorem index_onto : ∀ b : Fin 32, ∃ t : Fin cfg0.N, win0_5.index t = ![b.val, 0] ∧ win0_6.index t = ![b.val, 0] :=
  (by decide +kernel : ∀ b : Fin 32, ∃ t : Fin grid0.N, win0_5.index t = ![b.val, 0] ∧ win0_6.index t = ![b.val, 0])

/-- Row `p` of grid point `t`'s block is row 256·t + p of the batch. -/
def rowOf (t : Fin cfg0.N) (p : Fin 256) : Fin 8192 :=
  ⟨t.val * 256 + p.val, by have ht : t.val < 32 := lt_of_lt_of_eq t.isLt N_0; omega⟩

/-! ## The input blocks read through the body's rectangles -/

section
variable (c : Dev nD) (t : Fin cfg0.N)

theorem x_read (p : Fin 256) (k : Fin 1024) :
    View.ld (blockAt m c 0 t) rRows (ix2 p k) = entry m c main_arg0 (ix2 (rowOf t p) k) := by
  obtain ⟨e0, e1, -⟩ := index_facts t
  show entry m c main_arg0 (((cfg0.win 0).blk t).view.emb (rRows.idx (ix2 p k))) = _
  refine congrArg (entry m c main_arg0) (funext fun a => Fin.ext ?_)
  match a with
  | ⟨0, _⟩ => show win0_0.index t (0 : Fin 2) * 256 + 1 * (0 + 1 * p.val) = t.val * 256 + p.val; omega
  | ⟨1, _⟩ => show win0_0.index t (1 : Fin 2) * 1024 + 1 * (0 + 1 * k.val) = k.val; omega

theorem h_read (p : Fin 256) (k : Fin 1024) :
    View.ld (blockAt m c 1 t) rRows (ix2 p k) = entry m c main_arg1 (ix2 (rowOf t p) k) := by
  obtain ⟨-, -, e0, e1, -⟩ := index_facts t
  show entry m c main_arg1 (((cfg0.win 1).blk t).view.emb (rRows.idx (ix2 p k))) = _
  refine congrArg (entry m c main_arg1) (funext fun a => Fin.ext ?_)
  match a with
  | ⟨0, _⟩ => show win0_1.index t (0 : Fin 2) * 256 + 1 * (0 + 1 * p.val) = t.val * 256 + p.val; omega
  | ⟨1, _⟩ => show win0_1.index t (1 : Fin 2) * 1024 + 1 * (0 + 1 * k.val) = k.val; omega

theorem c_read (p : Fin 256) (k : Fin 1024) :
    View.ld (blockAt m c 2 t) rRows (ix2 p k) = entry m c main_arg2 (ix2 (rowOf t p) k) := by
  obtain ⟨-, -, -, -, e0, e1, -⟩ := index_facts t
  show entry m c main_arg2 (((cfg0.win 2).blk t).view.emb (rRows.idx (ix2 p k))) = _
  refine congrArg (entry m c main_arg2) (funext fun a => Fin.ext ?_)
  match a with
  | ⟨0, _⟩ => show win0_2.index t (0 : Fin 2) * 256 + 1 * (0 + 1 * p.val) = t.val * 256 + p.val; omega
  | ⟨1, _⟩ => show win0_2.index t (1 : Fin 2) * 1024 + 1 * (0 + 1 * k.val) = k.val; omega

theorem wx_read (j : Fin 4096) (k : Fin 1024) :
    View.ld (blockAt m c 3 t) rWx (ix2 j k) = entry m c main_v1 (ix2 j (colX k)) := by
  obtain ⟨-, -, -, -, -, -, e0, e1, -⟩ := index_facts t
  show entry m c main_v1 (((cfg0.win 3).blk t).view.emb (rWx.idx (ix2 j k))) = _
  refine congrArg (entry m c main_v1) (funext fun a => Fin.ext ?_)
  match a with
  | ⟨0, _⟩ => show win0_3.index t (0 : Fin 2) * 4096 + 1 * (0 + 1 * j.val) = j.val; omega
  | ⟨1, _⟩ => show win0_3.index t (1 : Fin 2) * 2048 + 1 * (0 + 1 * k.val) = k.val; omega

theorem wh_read (j : Fin 4096) (k : Fin 1024) :
    View.ld (blockAt m c 3 t) rWh (ix2 j k) = entry m c main_v1 (ix2 j (colH k)) := by
  obtain ⟨-, -, -, -, -, -, e0, e1, -⟩ := index_facts t
  show entry m c main_v1 (((cfg0.win 3).blk t).view.emb (rWh.idx (ix2 j k))) = _
  refine congrArg (entry m c main_v1) (funext fun a => Fin.ext ?_)
  match a with
  | ⟨0, _⟩ => show win0_3.index t (0 : Fin 2) * 4096 + 1 * (0 + 1 * j.val) = j.val; omega
  | ⟨1, _⟩ => show win0_3.index t (1 : Fin 2) * 2048 + 1 * (1024 + 1 * k.val) = 1024 + k.val; omega

theorem b_read (j : Fin 4096) :
    View.ld (blockAt m c 4 t) rBias (ix2 0 j) = entry m c main_v3 (ix2 0 j) := by
  obtain ⟨-, -, -, -, -, -, -, -, e0, e1, -⟩ := index_facts t
  show entry m c main_v3 (((cfg0.win 4).blk t).view.emb (rBias.idx (ix2 0 j))) = _
  refine congrArg (entry m c main_v3) (funext fun a => Fin.ext ?_)
  match a with
  | ⟨0, _⟩ => show win0_4.index t (0 : Fin 2) * 1 + 1 * (0 + 1 * 0) = 0; omega
  | ⟨1, _⟩ => show win0_4.index t (1 : Fin 2) * 4096 + 1 * (0 + 1 * j.val) = j.val; omega

end

/-! ## What each point writes back -/

/-- The bias row the region finds, as a vector of 4096 entries. -/
def biasVec (c : Dev nD) : Biases.Idx → EReal := fun i => entry m c main_v3 (ix2 0 ⟨(i 0).val, (i 0).isLt⟩)

/-- The cell-state result as the region's arrays determine it; -/
def cellOf (c : Dev nD) : S8192x1024.Idx → EReal :=
  cellArray (entry m c main_arg0) (entry m c main_arg1) (entry m c main_arg2) (entry m c main_v1) (biasVec m c)
/-- the hidden-state result. -/
def hiddenOf (c : Dev nD) : S8192x1024.Idx → EReal :=
  hiddenArray (entry m c main_arg0) (entry m c main_arg1) (entry m c main_arg2) (entry m c main_v1) (biasVec m c)

/-- Point `t` writes back rows 256·t … of the cell-state function. -/
theorem flushed_cell (c : Dev nD) (t : Fin cfg0.N) :
    (dats m 0 c).flushed 6 t = ((cfg0.win 6).blk t).view.read (Elt Ideal) (cellOf m c) := by
  show (cfg0.win 6).cut (grid0.coords t) ((dats m 0 c).after 6 t) = _
  rw [after6]
  unfold cOut
  rw [View.canon_unit_zero zero_off]
  refine funext fun (y : S256x1024.Idx) => ?_
  obtain ⟨p, q, rfl⟩ : ∃ (p : Fin 256) (q : Fin 1024), y = ix2 p q := ⟨y 0, y 1, eq_ix2 y⟩
  obtain ⟨-, -, -, -, -, -, -, -, -, -, -, -, e0, e1⟩ := index_facts t
  have hemb : ((cfg0.win 6).blk t).view.emb (ix2 p q) = ix2 (rowOf t p) q := funext fun a => Fin.ext (by
    match a with
    | ⟨0, _⟩ => show win0_6.index t (0 : Fin 2) * 256 + 1 * p.val = t.val * 256 + p.val; omega
    | ⟨1, _⟩ => show win0_6.index t (1 : Fin 2) * 1024 + 1 * q.val = q.val; omega)
  show k0_pay2 (F := Ideal) _ _ _ _ _ _ (ix2 p q) = cellOf m c (((cfg0.win 6).blk t).view.emb (ix2 p q))
  rw [hemb]
  refine (Payload.cell_at _ _ _ _ _ _ p q).trans ?_
  unfold cellOf
  rw [cellArray_apply]
  unfold cellRows biasVec
  simp only [x_read, h_read, c_read, wx_read, wh_read, b_read]

/-- Point `t` writes back rows 256·t … of the hidden-state function. -/
theorem flushed_hidden (c : Dev nD) (t : Fin cfg0.N) :
    (dats m 0 c).flushed 5 t = ((cfg0.win 5).blk t).view.read (Elt Ideal) (hiddenOf m c) := by
  show (cfg0.win 5).cut (grid0.coords t) ((dats m 0 c).after 5 t) = _
  rw [after5]
  unfold hOut
  rw [View.canon_unit_zero zero_off]
  refine funext fun (y : S256x1024.Idx) => ?_
  obtain ⟨p, q, rfl⟩ : ∃ (p : Fin 256) (q : Fin 1024), y = ix2 p q := ⟨y 0, y 1, eq_ix2 y⟩
  obtain ⟨-, -, -, -, -, -, -, -, -, -, e0, e1, -⟩ := index_facts t
  have hemb : ((cfg0.win 5).blk t).view.emb (ix2 p q) = ix2 (rowOf t p) q := funext fun a => Fin.ext (by
    match a with
    | ⟨0, _⟩ => show win0_5.index t (0 : Fin 2) * 256 + 1 * p.val = t.val * 256 + p.val; omega
    | ⟨1, _⟩ => show win0_5.index t (1 : Fin 2) * 1024 + 1 * q.val = q.val; omega)
  show k0_pay3 (F := Ideal) _ _ _ _ _ _ (ix2 p q) = hiddenOf m c (((cfg0.win 5).blk t).view.emb (ix2 p q))
  rw [hemb]
  refine (Payload.hidden_at _ _ _ _ _ _ p q).trans ?_
  unfold hiddenOf
  rw [hiddenArray_apply]
  unfold hiddenRows biasVec
  simp only [x_read, h_read, c_read, wx_read, wh_read, b_read]

/-! ## The blocks cover the arrays -/

theorem mem_block5 (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v4_0).slice (win0_5.rect t)).set ↔ _
  rw [View.set_slice_whole, Rect.mem_set_unit]
  exact Iff.rfl

theorem mem_block6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v4_1).slice (win0_6.rect t)).set ↔ _
  rw [View.set_slice_whole, Rect.mem_set_unit]
  exact Iff.rfl

/-- Row `r` is in the block of point `r / 256`. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  obtain ⟨t, ht, -⟩ := index_onto ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_block5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, -, ht⟩ := index_onto ⟨(i 0).val / 256, by omega⟩
  have q0 : win0_6.index t (0 : Fin 2) = (i 0).val / 256 := congrFun ht 0
  have q1 : win0_6.index t (1 : Fin 2) = 0 := congrFun ht 1
  refine ⟨t, flush0_6 t, ?_⟩
  rw [mem_block6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- After the run the hidden-state array is the hidden-state function; -/
theorem final_hidden (c : Dev nD) : (dats m 0 c).arrAt 5 cfg0.N = hiddenOf m c :=
  (dats m 0 c).arrAt_eq_of_cover 5 (hiddenOf m c) (fun t _ => flushed_hidden m c t) cover5
/-- the cell-state array the cell-state function. -/
theorem final_cell (c : Dev nD) : (dats m 0 c).arrAt 6 cfg0.N = cellOf m c :=
  (dats m 0 c).arrAt_eq_of_cover 6 (cellOf m c) (fun t _ => flushed_cell m c t) cover6

/-! ## The arrays the host operations made -/

/-- The stacked weights are the four gate weight matrices one above the other (the change of format is the identity
    on the extended reals). -/
theorem entry_weights (c : Dev nD) :
    (entry m c main_v1 : S4096x2048.Idx → EReal)
      = concatenate S4096x2048 0 [⟨S1024x2048, m ((c : Thread nD τ).loc main_arg3)⟩, ⟨S1024x2048, m ((c : Thread nD τ).loc main_arg5)⟩,
          ⟨S1024x2048, m ((c : Thread nD τ).loc main_arg7)⟩, ⟨S1024x2048, m ((c : Thread nD τ).loc main_arg9)⟩]
          concatenates_S1024x2048_S1024x2048_S1024x2048_S1024x2048_S4096x2048_d0 := by
  dsimp only [entry, hostOps0]; after_results; rfl

/-- The bias row is the four bias vectors end to end, given a leading unit axis. -/
theorem entry_biases (c : Dev nD) :
    (entry m c main_v3 : S1x4096.Idx → EReal)
      = shapeCast S1x4096 (concatenate S4096 0 [⟨S1024, m ((c : Thread nD τ).loc main_arg4)⟩, ⟨S1024, m ((c : Thread nD τ).loc main_arg6)⟩,
          ⟨S1024, m ((c : Thread nD τ).loc main_arg8)⟩, ⟨S1024, m ((c : Thread nD τ).loc main_arg10)⟩]
          concatenates_S1024_S1024_S1024_S1024_S4096_d0) shapeCasts_S4096_S1x4096 := by
  dsimp only [entry, hostOps0]; after_results; rfl

/-- The four gate weight matrices one above the other, and the four bias vectors end to end, from the launch memory. -/
def stackedWeights (c : Dev nD) : S4096x2048.Idx → EReal :=
  concatenate S4096x2048 0 [⟨S1024x2048, m ((c : Thread nD τ).loc main_arg3)⟩, ⟨S1024x2048, m ((c : Thread nD τ).loc main_arg5)⟩,
    ⟨S1024x2048, m ((c : Thread nD τ).loc main_arg7)⟩, ⟨S1024x2048, m ((c : Thread nD τ).loc main_arg9)⟩]
    concatenates_S1024x2048_S1024x2048_S1024x2048_S1024x2048_S4096x2048_d0
def stackedBiases (c : Dev nD) : S4096.Idx → EReal :=
  concatenate S4096 0 [⟨S1024, m ((c : Thread nD τ).loc main_arg4)⟩, ⟨S1024, m ((c : Thread nD τ).loc main_arg6)⟩,
    ⟨S1024, m ((c : Thread nD τ).loc main_arg8)⟩, ⟨S1024, m ((c : Thread nD τ).loc main_arg10)⟩]
    concatenates_S1024_S1024_S1024_S1024_S4096_d0

/-- Entry `j` of the bias row is entry `j` of the stacked biases. -/
theorem biasVec_eq (c : Dev nD) : biasVec m c = stackedBiases m c := by
  funext i
  unfold biasVec stackedBiases
  rw [entry_biases]
  exact (shapeCast_a_1a_apply _ shapeCasts_S4096_S1x4096 0 ⟨(i 0).val, (i 0).isLt⟩).trans (congrArg _ (eq_ix1 i).symm)

theorem hiddenOf_eq (c : Dev nD) :
    hiddenOf m c = hiddenArray (m ((c : Thread nD τ).loc main_arg0)) (m ((c : Thread nD τ).loc main_arg1)) (m ((c : Thread nD τ).loc main_arg2))
      (stackedWeights m c) (stackedBiases m c) := by
  unfold hiddenOf stackedWeights
  rw [entry_arg0, entry_arg1, entry_arg2, entry_weights, biasVec_eq]

theorem cellOf_eq (c : Dev nD) :
    cellOf m c = cellArray (m ((c : Thread nD τ).loc main_arg0)) (m ((c : Thread nD τ).loc main_arg1)) (m ((c : Thread nD τ).loc main_arg2))
      (stackedWeights m c) (stackedBiases m c) := by
  unfold cellOf stackedWeights
  rw [entry_arg0, entry_arg1, entry_arg2, entry_weights, biasVec_eq]

/-! ## The run, read -/

/-- Every weakly fair execution of the program on the extended reals terminates with the hidden-state and cell-state
    arrays at the LSTM cell's functions of the arguments, and the arguments unchanged. -/
theorem run : θ_run defs (onTc (τ := τ) (main (F := Ideal))) ⟨m, fun _ => 0, ρ⟩ fun r => ∀ c : Dev nD,
      r.2.mem ((c : Thread nD τ).loc main_v4_0) = hiddenArray (m ((c : Thread nD τ).loc main_arg0)) (m ((c : Thread nD τ).loc main_arg1))
          (m ((c : Thread nD τ).loc main_arg2)) (stackedWeights m c) (stackedBiases m c)
      ∧ r.2.mem ((c : Thread nD τ).loc main_v4_1) = cellArray (m ((c : Thread nD τ).loc main_arg0)) (m ((c : Thread nD τ).loc main_arg1))
          (m ((c : Thread nD τ).loc main_arg2)) (stackedWeights m c) (stackedBiases m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final_hidden m c).trans (hiddenOf_eq m c)),
      (h c).2.1.trans ((final_cell m c).trans (cellOf_eq m c)), (h c).2.2⟩)
    (run_named m ρ)

end Cert.KernelIdeal.Whole

end
-- ==== Proof.RefValue.lean ====
/-
  The reference LSTM cell, read entry by entry on the extended reals.

  The reference joins x and h side by side, stacks the four gate weight matrices and the four bias vectors,
  multiplies the joined rows by the transposed stack and adds the biases; a sum over the 2048 joined columns is the
  sum over x's 1024 columns plus the sum over h's, so the product's entry is `Lstm.gate`.  It then cuts the four
  groups of 1024 units out, and writes the logistic function as 1 / (1 + e^(-g)), which on the extended reals is the
  logistic function itself.  So its two results are `Lstm.hiddenArray` and `Lstm.cellArray` of the arguments, the
  stacked weights and the stacked biases.
-/
import proofs.«142480_j77919296684536_2_alg».proof.Proof.Gen.ReferenceIdeal.Read
import proofs.«142480_j77919296684536_2_alg».proof.Proof.LstmSpec
import Idealize.ShloMosaic.Lib.Pipeline.Value
import Idealize.ShloMosaic.Lib.ValueIdx
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.Lstm

variable (x0 x1 x2 : (⟨S8192x1024, .f32⟩ : BufTy).Contents (Elt Ideal))
  (x3 x5 x7 x9 : (⟨S1024x2048, .f32⟩ : BufTy).Contents (Elt Ideal))
  (x4 x6 x8 x10 : (⟨S1024, .f32⟩ : BufTy).Contents (Elt Ideal))

/-! ## The joined rows -/

/-- A column of the left half of [x | h] is x's; -/
theorem joined_left (r : Fin 8192) (k : Fin 1024) : val_main_v0 (F := Ideal) x0 x1 (ix2 r (colX k)) = x0 (ix2 r k) := by
  unfold val_main_v0
  exact concatenate_pair_apply_left (1 : Fin 2) x0 x1 concatenates_S8192x1024_S8192x1024_S8192x2048_d1 (ix2 r (colX k)) rfl (ix2 r k)
    (fun b => match b with | ⟨0, _⟩ => rfl | ⟨1, _⟩ => rfl)

/-- a column of the right half is h's. -/
theorem joined_right (r : Fin 8192) (k : Fin 1024) : val_main_v0 (F := Ideal) x0 x1 (ix2 r (colH k)) = x1 (ix2 r k) := by
  unfold val_main_v0
  exact concatenate_pair_apply_right (1 : Fin 2) x0 x1 concatenates_S8192x1024_S8192x1024_S8192x2048_d1 (ix2 r (colH k)) rfl rfl (ix2 r k)
    (fun b hb => match b, hb with | ⟨0, _⟩, _ => rfl | ⟨1, _⟩, hb => absurd rfl hb)
    (by show k.val + 1024 = 1024 + k.val; omega)

/-! ## The pre-activations -/

/-- The product with the transposed stack, plus the biases, at row `r` and unit `j`. -/
theorem preact (r : Fin 8192) (j : Fin 4096) :
    val_main_v7 (F := Ideal) x0 x1 x3 x4 x5 x6 x7 x8 x9 x10 (ix2 r j)
      = gate (fun k => x0 (ix2 r k)) (fun k => x1 (ix2 r k))
          (fun k => val_main_v1 (F := Ideal) x3 x5 x7 x9 (ix2 j (colX k))) (fun k => val_main_v1 (F := Ideal) x3 x5 x7 x9 (ix2 j (colH k)))
          (val_main_v2 (F := Ideal) x4 x6 x8 x10 (ix1 j)) := by
  rw [val_main_v7_apply, val_main_v4_apply, val_main_v6_apply, val_main_v5_apply, sum_cols]
  unfold gate
  have hl : ∀ k : Fin 2048, lidx_main_v4 (ix2 r j) k = ix2 r k := fun k => funext fun a => match a with | ⟨0, _⟩ => rfl | ⟨1, _⟩ => rfl
  have hr : ∀ k : Fin 2048, idx_main_v3 (ridx_main_v4 (ix2 r j) k) = ix2 j k := fun k => funext fun a => match a with | ⟨0, _⟩ => rfl | ⟨1, _⟩ => rfl
  have hb : idx_main_v5 (idx_main_v6 (ix2 r j)) = ix1 j := funext fun a => match a with | ⟨0, _⟩ => rfl
  simp only [val_main_v3_apply, hl, hr, hb, joined_left, joined_right]
  rfl

/-! ## The gates -/

/-- 1 / (1 + e^(-g)) with the host's quotient, exponential and negation is the logistic function. -/
theorem sigma_ref (g : EReal) :
    FloatOps.hostDivf (F := Ideal) (φ := .f32) (FloatOps.ofBits .f32 0x3F800000#32)
        (FloatOps.addf (FloatOps.ofBits .f32 0x3F800000#32) (FloatOps.hostUnary .exp (FloatOps.hostNegf g)))
      = Ideal.logistic g := by
  rw [logistic_eq]
  simp only [Ideal.hostDivf_def, Ideal.addf_def, Ideal.hostUnary_exp_def, Ideal.hostNegf_def, Ideal.negf_def, Ideal.ofBits_def, Ideal.ofBits_one_f32]

theorem unit_f (r : Fin 8192) (q : Fin 1024) : idx_main_v8 (ix2 r q) = ix2 r (unitF q) := funext fun a => match a with | ⟨0, _⟩ => rfl | ⟨1, _⟩ => rfl
theorem unit_i (r : Fin 8192) (q : Fin 1024) : idx_main_v9 (ix2 r q) = ix2 r (unitI q) := funext fun a => match a with | ⟨0, _⟩ => rfl | ⟨1, _⟩ => rfl
theorem unit_c (r : Fin 8192) (q : Fin 1024) : idx_main_v10 (ix2 r q) = ix2 r (unitC q) := funext fun a => match a with | ⟨0, _⟩ => rfl | ⟨1, _⟩ => rfl
theorem unit_o (r : Fin 8192) (q : Fin 1024) : idx_main_v11 (ix2 r q) = ix2 r (unitO q) := funext fun a => match a with | ⟨0, _⟩ => rfl | ⟨1, _⟩ => rfl

/-- The forget gate at row `r`, unit `q`. -/
theorem forget_at (r : Fin 8192) (q : Fin 1024) :
    val_main_v17 (F := Ideal) x0 x1 x3 x4 x5 x6 x7 x8 x9 x10 (ix2 r q) = Ideal.logistic (val_main_v7 (F := Ideal) x0 x1 x3 x4 x5 x6 x7 x8 x9 x10 (ix2 r (unitF q))) := by
  rw [val_main_v17_apply, val_main_v16_apply, val_main_cst_0_apply, val_main_v15_apply, val_main_v14_apply, val_main_cst_apply,
    val_main_v13_apply, val_main_v12_apply, val_main_v8_apply, unit_f]
  exact sigma_ref _

/-- The input gate. -/
theorem input_at (r : Fin 8192) (q : Fin 1024) :
    val_main_v23 (F := Ideal) x0 x1 x3 x4 x5 x6 x7 x8 x9 x10 (ix2 r q) = Ideal.logistic (val_main_v7 (F := Ideal) x0 x1 x3 x4 x5 x6 x7 x8 x9 x10 (ix2 r (unitI q))) := by
  rw [val_main_v23_apply, val_main_v22_apply, val_main_cst_2_apply, val_main_v21_apply, val_main_v20_apply, val_main_cst_1_apply,
    val_main_v19_apply, val_main_v18_apply, val_main_v9_apply, unit_i]
  exact sigma_ref _

/-- The candidate. -/
theorem candidate_at (r : Fin 8192) (q : Fin 1024) :
    val_main_v24 (F := Ideal) x0 x1 x3 x4 x5 x6 x7 x8 x9 x10 (ix2 r q) = Ideal.tanh (val_main_v7 (F := Ideal) x0 x1 x3 x4 x5 x6 x7 x8 x9 x10 (ix2 r (unitC q))) := by
  rw [val_main_v24_apply, val_main_v10_apply, unit_c]
  rfl

/-- The output gate. -/
theorem output_at (r : Fin 8192) (q : Fin 1024) :
    val_main_v33 (F := Ideal) x0 x1 x3 x4 x5 x6 x7 x8 x9 x10 (ix2 r q) = Ideal.logistic (val_main_v7 (F := Ideal) x0 x1 x3 x4 x5 x6 x7 x8 x9 x10 (ix2 r (unitO q))) := by
  rw [val_main_v33_apply, val_main_v32_apply, val_main_cst_4_apply, val_main_v31_apply, val_main_v30_apply, val_main_cst_3_apply,
    val_main_v29_apply, val_main_v28_apply, val_main_v11_apply, unit_o]
  exact sigma_ref _

/-! ## The two results -/

/-- The reference's new cell state is the cell-state function of its arguments, the stacked weights and the stacked
    biases. -/
theorem cell_eq :
    val_main_v27 (F := Ideal) x0 x1 x2 x3 x4 x5 x6 x7 x8 x9 x10
      = cellArray x0 x1 x2 (val_main_v1 (F := Ideal) x3 x5 x7 x9) (val_main_v2 (F := Ideal) x4 x6 x8 x10) := by
  funext i
  obtain ⟨r, q, rfl⟩ : ∃ (r : Fin 8192) (q : Fin 1024), i = ix2 r q := ⟨i 0, i 1, eq_ix2 i⟩
  rw [cellArray_apply, val_main_v27_apply, val_main_v25_apply, val_main_v26_apply, forget_at, input_at, candidate_at]
  unfold cellRows newCell
  simp only [preact]
  rfl

/-- The reference's new hidden state likewise. -/
theorem hidden_eq :
    val_main_v35 (F := Ideal) x0 x1 x2 x3 x4 x5 x6 x7 x8 x9 x10
      = hiddenArray x0 x1 x2 (val_main_v1 (F := Ideal) x3 x5 x7 x9) (val_main_v2 (F := Ideal) x4 x6 x8 x10) := by
  funext i
  obtain ⟨r, q, rfl⟩ : ∃ (r : Fin 8192) (q : Fin 1024), i = ix2 r q := ⟨i 0, i 1, eq_ix2 i⟩
  rw [hiddenArray_apply, val_main_v35_apply, val_main_v34_apply, output_at, cell_eq, cellArray_apply]
  unfold hiddenRows newHidden cellRows
  simp only [preact]
  rfl

end Cert.ReferenceIdeal.RefValue

end
-- ==== Proof.lean ====
/-
  The fused LSTM-cell program against its reference, on the extended reals.

  Both programs compute, for each of the 8192 rows of the batch and each of the 1024 hidden units,
      g j      = Σₖ x k · W j k + Σₖ h k · W j (1024 + k) + b j          (4096 gate units j, W and b the four gates' stacked)
      c' q     = σ (g q) · c q + σ (g (1024 + q)) · tanh (g (2048 + q))
      h' q     = σ (g (3072 + q)) · tanh (c' q)
  with σ the logistic function.  The pipelined program does it 256 rows at a time with the two sums as two matrix
  products; the reference joins x and h, takes one product over the 2048 joined columns and writes σ as
  1 / (1 + e^(-g)).  A sum over the joined columns is the sum over the first half plus the sum over the second half
  in any commutative monoid, so the two agree at every extended real: no finiteness of the inputs is used.

  The pieces: each program's frame (it terminates, faults nowhere and leaves its arguments unchanged) — for the
  pipelined program at the word level and on the extended reals from its run through the pipeline library
  (`KernelFrame`, `KernelIdealFrame`), for the reference from its run as a sequence of host operations —; the
  pipelined program's two result arrays as functions of its arguments (`KernelValue`); the reference's (`RefValue`);
  both are `Lstm.hiddenArray` and `Lstm.cellArray` of the arguments, the stacked weights and the stacked biases.
  The idealization rewrote nothing, so there is nothing to preserve.
-/
import proofs.«142480_j77919296684536_2_alg».proof.Defs
import proofs.«142480_j77919296684536_2_alg».proof.Proof.Gen.Kernel
import proofs.«142480_j77919296684536_2_alg».proof.Proof.Gen.KernelIdeal
import proofs.«142480_j77919296684536_2_alg».proof.Proof.Gen.ReferenceIdeal
import proofs.«142480_j77919296684536_2_alg».proof.Proof.Gen.Pre_finite_inputs
import proofs.«142480_j77919296684536_2_alg».proof.Proof.KernelFrame
import proofs.«142480_j77919296684536_2_alg».proof.Proof.KernelValue
import proofs.«142480_j77919296684536_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments both programs end with the hidden state and the cell state at the LSTM
    cell's functions of the arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v35_eq, Cert.ReferenceIdeal.RefValue.hidden_eq, h0, h1, h2, h3, h4, h5, h6, h7, h8, h9, h10]
    rfl
  · obtain ⟨h0, h1, h2, h3, h4, h5, h6, h7, h8, h9, h10⟩ := hagree c
    refine (Cert.ReferenceIdeal.Read.val_main_v27_eq _ _ _ _ _ _ _ _ _ _ _).trans ?_
    rw [Cert.ReferenceIdeal.RefValue.cell_eq, h0, h1, h2, h3, h4, h5, h6, h7, h8, h9, h10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
